-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x2000000 : Shape := ⟨2, ![2, 2000000]⟩
abbrev S2000000 : Shape := ⟨1, ![2000000]⟩
abbrev S64x128 : Shape := ⟨2, ![64, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S100000x128 .f32) (main_arg1 : IVec S2x2000000 32) (main_arg2 : IVec S2000000 32) (main_arg3 : FVec F S64x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  main_v8
-- ==== Kernel.lean ====
abbrev S100000x128 : Shape := ⟨2, ![100000, 128]⟩
abbrev S2x2000000 : Shape := ⟨2, ![2, 2000000]⟩
abbrev S2000000 : Shape := ⟨1, ![2000000]⟩
abbrev S64x128 : Shape := ⟨2, ![64, 128]⟩
abbrev S1x2000000 : Shape := ⟨2, ![1, 2000000]⟩
abbrev S_ : Shape := ⟨0, ![]⟩
abbrev S2000000x1 : Shape := ⟨2, ![2000000, 1]⟩
abbrev S2000000x128 : Shape := ⟨2, ![2000000, 128]⟩
abbrev S2007040x128 : Shape := ⟨2, ![2007040, 128]⟩
abbrev S2007040 : Shape := ⟨1, ![2007040]⟩
abbrev S8192x128 : Shape := ⟨2, ![8192, 128]⟩
abbrev S8192 : Shape := ⟨1, ![8192]⟩

abbrev nBuf : Space → Nat
  | .hbm => 46
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S2x2000000, .i32⟩
  | .hbm, ⟨2, _⟩ => ⟨S2000000, .i32⟩
  | .hbm, ⟨3, _⟩ => ⟨S64x128, .f32⟩
  | .hbm, ⟨4, _⟩ => ⟨S1x2000000, .i32⟩
  | .hbm, ⟨5, _⟩ => ⟨S2000000, .i32⟩
  | .hbm, ⟨6, _⟩ => ⟨S1x2000000, .i32⟩
  | .hbm, ⟨7, _⟩ => ⟨S2000000, .i32⟩
  | .hbm, ⟨8, _⟩ => ⟨S_, .i32⟩
  | .hbm, ⟨9, _⟩ => ⟨S2000000, .i32⟩
  | .hbm, ⟨10, _⟩ => ⟨S2000000, .i1⟩
  | .hbm, ⟨11, _⟩ => ⟨S_, .i32⟩
  | .hbm, ⟨12, _⟩ => ⟨S2000000, .i32⟩
  | .hbm, ⟨13, _⟩ => ⟨S2000000, .i32⟩
  | .hbm, ⟨14, _⟩ => ⟨S2000000, .i32⟩
  | .hbm, ⟨15, _⟩ => ⟨S2000000x1, .i32⟩
  | .hbm, ⟨16, _⟩ => ⟨S2000000x128, .f32⟩
  | .hbm, ⟨17, _⟩ => ⟨S_, .i32⟩
  | .hbm, ⟨18, _⟩ => ⟨S2000000, .i32⟩
  | .hbm, ⟨19, _⟩ => ⟨S2000000, .i1⟩
  | .hbm, ⟨20, _⟩ => ⟨S_, .i32⟩
  | .hbm, ⟨21, _⟩ => ⟨S2000000, .i32⟩
  | .hbm, ⟨22, _⟩ => ⟨S2000000, .i32⟩
  | .hbm, ⟨23, _⟩ => ⟨S2000000, .i32⟩
  | .hbm, ⟨24, _⟩ => ⟨S2000000x1, .i32⟩
  | .hbm, ⟨25, _⟩ => ⟨S2000000x128, .f32⟩
  | .hbm, ⟨26, _⟩ => ⟨S_, .i32⟩
  | .hbm, ⟨27, _⟩ => ⟨S2000000, .i32⟩
  | .hbm, ⟨28, _⟩ => ⟨S2000000, .i1⟩
  | .hbm, ⟨29, _⟩ => ⟨S_, .i32⟩
  | .hbm, ⟨30, _⟩ => ⟨S2000000, .i32⟩
  | .hbm, ⟨31, _⟩ => ⟨S2000000, .i32⟩
  | .hbm, ⟨32, _⟩ => ⟨S2000000, .i32⟩
  | .hbm, ⟨33, _⟩ => ⟨S2000000x1, .i32⟩
  | .hbm, ⟨34, _⟩ => ⟨S2000000x128, .f32⟩
  | .hbm, ⟨35, _⟩ => ⟨S_, .i32⟩
  | .hbm, ⟨36, _⟩ => ⟨S_, .f32⟩
  | .hbm, ⟨37, _⟩ => ⟨S2007040x128, .f32⟩
  | .hbm, ⟨38, _⟩ => ⟨S_, .i32⟩
  | .hbm, ⟨39, _⟩ => ⟨S_, .f32⟩
  | .hbm, ⟨40, _⟩ => ⟨S2007040x128, .f32⟩
  | .hbm, ⟨41, _⟩ => ⟨S_, .i32⟩
  | .hbm, ⟨42, _⟩ => ⟨S_, .f32⟩
  | .hbm, ⟨43, _⟩ => ⟨S2007040x128, .f32⟩
  | .hbm, ⟨44, _⟩ => ⟨S2007040, .f32⟩
  | .hbm, ⟨45, _⟩ => ⟨S2000000, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S8192, .f32⟩
  | .local _ .vmem, ⟨7, _⟩ => ⟨S8192, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_v19 : Ref sig .tc := ⟨.hbm, 28, rfl⟩
abbrev main_c_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_5 : Ref sig .tc := ⟨.hbm, 35, rfl⟩
abbrev main_call0_v0 : Ref sig .tc := ⟨.hbm, 36, rfl⟩
abbrev main_v25 : Ref sig .tc := ⟨.hbm, 37, rfl⟩
abbrev main_c_6 : Ref sig .tc := ⟨.hbm, 38, rfl⟩
abbrev main_call1_v0 : Ref sig .tc := ⟨.hbm, 39, rfl⟩
abbrev main_v26 : Ref sig .tc := ⟨.hbm, 40, rfl⟩
abbrev main_c_7 : Ref sig .tc := ⟨.hbm, 41, rfl⟩
abbrev main_call2_v0 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![245], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  pads_S2000000x128_S2007040x128_070400_000 : S2000000x128.Pads (![0, 0] : Fin 2 → Nat) ![7040, 0] ![0, 0] S2007040x128
  h_S_ : 0 < S_.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S8192 : S8192x128.Reduces [1] S8192
  inb_S8192_S8192_0 : ∀ a, (![0] : Fin 1 → Nat) a + S8192.size a ≤ S8192.size a
  h_S8192 : 0 < S8192.numel
  slices_S2007040_S2000000_0 : S2007040.Slices ![0] S2000000
  gather_S100000x128_S2000000x1_S2000000x128_1_0_n_n_0_1_1128_wf : GatherDims.WF S100000x128 S2000000x1 S2000000x128 [1] [0] [] [0] [] 1 ![1, 128]
  gather_S64x128_S2000000x1_S2000000x128_1_0_n_n_0_1_1128_wf : GatherDims.WF S64x128 S2000000x1 S2000000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S2007040x128.size a
  hwx0_0 : ∀ i : grid0.Coords, EltTy.bits .f32 = 32 ∨ (Rect.block (s := S2007040x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S2007040x128.size a
  hwx0_1 : ∀ i : grid0.Coords, EltTy.bits .f32 = 32 ∨ (Rect.block (s := S2007040x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S2007040x128.size a
  hwx0_2 : ∀ i : grid0.Coords, EltTy.bits .f32 = 32 ∨ (Rect.block (s := S2007040x128) S8192x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192.size a ≤ S2007040.size a
  hwx0_3 : ∀ i : grid0.Coords, EltTy.bits .f32 = 32 ∨ (Rect.block (s := S2007040) S8192.size (cc0_transform_3 i) (hinb0_3 i)).WholeWords (EltTy.packing .f32)

variable [Facts₀]

def gather_S100000x128_S2000000x1_S2000000x128_1_0_n_n_0_1_1128 : GatherDims S100000x128 S2000000x1 S2000000x128 where
  offsetDims := [1]
  collapsedSliceDims := [0]
  operandBatchingDims := []
  startIndicesBatchingDims := []
  startIndexMap := [0]
  indexVectorDim := 1
  sliceSizes := ![1, 128]
  wf := gather_S100000x128_S2000000x1_S2000000x128_1_0_n_n_0_1_1128_wf
def gather_S64x128_S2000000x1_S2000000x128_1_0_n_n_0_1_1128 : GatherDims S64x128 S2000000x1 S2000000x128 where
  offsetDims := [1]
  collapsedSliceDims := [0]
  operandBatchingDims := []
  startIndicesBatchingDims := []
  startIndexMap := [0]
  indexVectorDim := 1
  sliceSizes := ![1, 128]
  wf := gather_S64x128_S2000000x1_S2000000x128_1_0_n_n_0_1_1128_wf

abbrev win0_0 : Pipeline.Window sig grid0 :=
  Pipeline.Window.ofSpec (Memref.whole main_v25) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x2000000 : Shape := ⟨2, ![2, 2000000]⟩
abbrev S2000000 : Shape := ⟨1, ![2000000]⟩
abbrev S64x128 : Shape := ⟨2, ![64, 128]⟩
abbrev S1x2000000 : Shape := ⟨2, ![1, 2000000]⟩
abbrev S_ : Shape := ⟨0, ![]⟩
abbrev S2000000x1 : Shape := ⟨2, ![2000000, 1]⟩
abbrev S2000000x128 : Shape := ⟨2, ![2000000, 128]⟩

abbrev nBuf : Space → Nat
  | .hbm => 47
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x2000000, .i32⟩
  | .hbm, ⟨2, _⟩ => ⟨S2000000, .i32⟩
  | .hbm, ⟨3, _⟩ => ⟨S64x128, .f32⟩
  | .hbm, ⟨4, _⟩ => ⟨S1x2000000, .i32⟩
  | .hbm, ⟨5, _⟩ => ⟨S2000000, .i32⟩
  | .hbm, ⟨6, _⟩ => ⟨S_, .i32⟩
  | .hbm, ⟨7, _⟩ => ⟨S2000000, .i32⟩
  | .hbm, ⟨8, _⟩ => ⟨S2000000, .i1⟩
  | .hbm, ⟨9, _⟩ => ⟨S_, .i32⟩
  | .hbm, ⟨10, _⟩ => ⟨S2000000, .i32⟩
  | .hbm, ⟨11, _⟩ => ⟨S2000000, .i32⟩
  | .hbm, ⟨12, _⟩ => ⟨S2000000, .i32⟩
  | .hbm, ⟨13, _⟩ => ⟨S2000000x1, .i32⟩
  | .hbm, ⟨14, _⟩ => ⟨S2000000x128, .f32⟩
  | .hbm, ⟨15, _⟩ => ⟨S1x2000000, .i32⟩
  | .hbm, ⟨16, _⟩ => ⟨S2000000, .i32⟩
  | .hbm, ⟨17, _⟩ => ⟨S_, .i32⟩
  | .hbm, ⟨18, _⟩ => ⟨S2000000, .i32⟩
  | .hbm, ⟨19, _⟩ => ⟨S2000000, .i1⟩
  | .hbm, ⟨20, _⟩ => ⟨S_, .i32⟩
  | .hbm, ⟨21, _⟩ => ⟨S2000000, .i32⟩
  | .hbm, ⟨22, _⟩ => ⟨S2000000, .i32⟩
  | .hbm, ⟨23, _⟩ => ⟨S2000000, .i32⟩
  | .hbm, ⟨24, _⟩ => ⟨S2000000x1, .i32⟩
  | .hbm, ⟨25, _⟩ => ⟨S2000000x128, .f32⟩
  | .hbm, ⟨26, _⟩ => ⟨S_, .i32⟩
  | .hbm, ⟨27, _⟩ => ⟨S2000000, .i32⟩
  | .hbm, ⟨28, _⟩ => ⟨S2000000, .i1⟩
  | .hbm, ⟨29, _⟩ => ⟨S_, .i32⟩
  | .hbm, ⟨30, _⟩ => ⟨S2000000, .i32⟩
  | .hbm, ⟨31, _⟩ => ⟨S2000000, .i32⟩
  | .hbm, ⟨32, _⟩ => ⟨S2000000, .i32⟩
  | .hbm, ⟨33, _⟩ => ⟨S2000000x1, .i32⟩
  | .hbm, ⟨34, _⟩ => ⟨S2000000x128, .f32⟩
  | .hbm, ⟨35, _⟩ => ⟨S2000000x128, .f32⟩
  | .hbm, ⟨36, _⟩ => ⟨S2000000x128, .f32⟩
  | .hbm, ⟨37, _⟩ => ⟨S_, .f32⟩
  | .hbm, ⟨38, _⟩ => ⟨S2000000, .f32⟩
  | .hbm, ⟨39, _⟩ => ⟨S2000000, .f32⟩
  | .hbm, ⟨40, _⟩ => ⟨S2000000, .f32⟩
  | .hbm, ⟨41, _⟩ => ⟨S_, .f32⟩
  | .hbm, ⟨42, _⟩ => ⟨S2000000, .f32⟩
  | .hbm, ⟨43, _⟩ => ⟨S2000000, .f32⟩
  | .hbm, ⟨44, _⟩ => ⟨S_, .f32⟩
  | .hbm, ⟨45, _⟩ => ⟨S2000000, .f32⟩
  | .hbm, ⟨46, _⟩ => ⟨S2000000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_v19 : Ref sig .tc := ⟨.hbm, 28, rfl⟩
abbrev main_c_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S2x2000000_S1x2000000_1_0 : S2x2000000.Slices ![1, 0] S1x2000000
  reducesTo_S2000000x128_S2000000_d1 : S2000000x128.ReducesTo [1] S2000000
  h_S_ : 0 < S_.numel
  gather_S100000x128_S2000000x1_S2000000x128_1_0_n_n_0_1_1128_wf : GatherDims.WF S100000x128 S2000000x1 S2000000x128 [1] [0] [] [0] [] 1 ![1, 128]
  gather_S64x128_S2000000x1_S2000000x128_1_0_n_n_0_1_1128_wf : GatherDims.WF S64x128 S2000000x1 S2000000x128 [1] [0] [] [0] [] 1 ![1, 128]

variable [Facts₀]

def gather_S100000x128_S2000000x1_S2000000x128_1_0_n_n_0_1_1128 : GatherDims S100000x128 S2000000x1 S2000000x128 where
  offsetDims := [1]
  collapsedSliceDims := [0]
  operandBatchingDims := []
  startIndicesBatchingDims := []
  startIndexMap := [0]
  indexVectorDim := 1
  sliceSizes := ![1, 128]
  wf := gather_S100000x128_S2000000x1_S2000000x128_1_0_n_n_0_1_1128_wf
def gather_S64x128_S2000000x1_S2000000x128_1_0_n_n_0_1_1128 : GatherDims S64x128 S2000000x1 S2000000x128 where
  offsetDims := [1]
  collapsedSliceDims := [0]
  operandBatchingDims := []
  startIndicesBatchingDims := []
  startIndexMap := [0]
  indexVectorDim := 1
  sliceSizes := ![1, 128]
  wf := gather_S64x128_S2000000x1_S2000000x128_1_0_n_n_0_1_1128_wf

class Facts : Prop extends Facts₀ where

variable [Facts]
-- ==== Proof.Score.lean ====
/-
  DistMult's score of one edge, as one function of the three rows the edge reads.

  For an edge with source row `a`, relation row `r` and destination row `b` (each of 128 entries, extended reals)
  the score is `σ (∑ k, (a k · r k) · b k)`, where `σ x = 1 / (1 + e⁻ˣ)` is the logistic function on the extended
  reals (`σ ⊥ = 0`, `σ ⊤ = 1`). The products are grouped `(a · r) · b`, the order in which both programs multiply,
  so no law of the extended reals beyond reading each operation at an index is needed to meet either side: in
  particular nothing here asks the entries to be finite.

  The host spells the logistic function as a quotient, `1 / (1 + exp (-(0 + s)))`, the `0` being the initial value
  of its sum; `host_sigmoid` is that spelling folded back.
-/
import Idealize.ShloMosaic.Lib.IdealHost

noncomputable section

namespace Cert.DistMult

open Idealize.ShloMosaic

/-- The score of one edge from its three rows: the logistic function of `∑ k, (a k · r k) · b k`. -/
def rowScore (a r b : Fin 128 → EReal) : EReal := Ideal.logistic (∑ k : Fin 128, (a k * r k) * b k)

/-- The quotient `1 / (1 + exp (-(0 + s)))` is the logistic function of `s`, for every extended real `s`:
    `0 + s = s`, and the rest is the logistic function's definition. -/
theorem host_sigmoid (s : EReal) : Ideal.div 1 (1 + Ideal.exp (-(0 + s))) = Ideal.logistic s := by
  rw [zero_add]; rfl

end Cert.DistMult

end
-- ==== Proof.RefScore.lean ====
/-
  The reference's result, read at an edge.

  The reference gathers the source rows `z[e₀]`, the relation rows `rel[rid]` and the destination rows `z[e₁]`
  as three arrays of shape [2000000, 128], multiplies them entry by entry as `(src · rel) · dst`, sums each row over
  its 128 entries from the initial value `0`, and applies `1 / (1 + exp (-·))`. Read at edge `i` this is
  `rowScore` of row `i` of the three gathered arrays; the gathers themselves are never opened.
-/
import proofs.«151514_j39127152066939_1_alg».proof.Proof.Gen.ReferenceIdeal.Read
import proofs.«151514_j39127152066939_1_alg».proof.Proof.Score

noncomputable section

namespace Cert.ReferenceIdeal.RefValue

open Cert.ReferenceIdeal Cert.ReferenceIdeal.Gen Cert.ReferenceIdeal.Read Idealize.ShloMosaic Cert.DistMult

/-- Row `i`, entry `k` of a [2000000, 128] array. -/
abbrev cell (i : S2000000.Idx) (k : Fin 128) : S2000000x128.Idx := idx_main_v27 i k

/-- The reference's result at edge `i` is the score of row `i` of the gathered source, relation and destination
    rows: each stage read at the index, the two literal ones and the literal zero evaluated, and the host's
    quotient folded back into the logistic function. -/
theorem result_apply (x0 : (⟨S100000x128, .f32⟩ : BufTy).Contents (Elt Ideal)) (x1 : (⟨S2x2000000, .i32⟩ : BufTy).Contents (Elt Ideal))
    (x2 : (⟨S2000000, .i32⟩ : BufTy).Contents (Elt Ideal)) (x3 : (⟨S64x128, .f32⟩ : BufTy).Contents (Elt Ideal)) (i : S2000000.Idx) :
    val_main_v33 (F := Ideal) x0 x1 x2 x3 i
      = rowScore (fun k => val_main_v8 (F := Ideal) x0 x1 (cell i k)) (fun k => val_main_v24 (F := Ideal) x2 x3 (cell i k))
          (fun k => val_main_v17 (F := Ideal) x0 x1 (cell i k)) := by
  rw [val_main_v33_apply, val_main_v32_apply, val_main_cst_6_apply, val_main_v31_apply, val_main_v30_apply, val_main_cst_5_apply,
    val_main_v29_apply, val_main_v28_apply, val_main_v27_apply, val_main_cst_apply]
  simp only [val_main_v26_apply, val_main_v25_apply, Ideal.hostDivf_def, Ideal.addf_def, Ideal.hostUnary_exp_def, Ideal.hostNegf_def,
    Ideal.negf_def, Ideal.mulf_def, Ideal.ofBits_def, Ideal.ofBits_one_f32, Ideal.ofBits_zero_f32]
  exact host_sigmoid _

end Cert.ReferenceIdeal.RefValue

end
-- ==== Proof.Payload.lean ====
/-
  The kernel body's stored value, read at a row of its block.

  At one grid point the body loads three [8192, 128] blocks — source rows `x0`, destination rows `x1`, relation
  rows `x2` —, multiplies them entry by entry as `(x0 · x2) · x1`, sums each row over its 128 lanes and applies the
  logistic function, storing 8192 scores. Read at row `p` of the block this is `rowScore` of row `p` of the three
  blocks: the lane sum over one axis is the plain sum over `k : Fin 128`, and the index it sums at, row `p` with
  lane `k` put back, is `(p, k)`.
-/
import proofs.«151514_j39127152066939_1_alg».proof.Proof.Gen.KernelIdeal.Skeleton
import proofs.«151514_j39127152066939_1_alg».proof.Proof.Score
import Idealize.ShloMosaic.PureOps.Ideal.Laws
import Idealize.ShloMosaic.Lib.ValueIdx
import Idealize.ShloMosaic.Lib.Pipeline.Value

noncomputable section

namespace Cert.KernelIdeal.KValue

open Cert.KernelIdeal Cert.KernelIdeal.Gen Idealize.ShloMosaic Idealize.ShloMosaic.ValueIdx Cert.DistMult

/-- Row `p` with lane `k` put back on the summed axis is the index `(p, k)` of the block. -/
theorem lift_row (h : S8192x128.Reduces [1] S8192) (p : Fin 8192) (k : Fin 128) : h.lift (ix1 p) k = ix2 p k :=
  funext fun a => Fin.ext (by match a with | ⟨0, _⟩ => rfl | ⟨1, _⟩ => rfl)

/-- The body's stored value at row `p`: the score of row `p` of the source, relation and destination blocks. -/
theorem payload_apply (x0 x1 x2 : Vec Ideal S8192x128 .f32) (p : Fin 8192) :
    k0_pay1 (F := Ideal) x0 x1 x2 (ix1 p)
      = rowScore (fun k => x0 (ix2 p k)) (fun k => x2 (ix2 p k)) (fun k => x1 (ix2 p k)) := by
  unfold k0_pay1
  simp only [shapeCast_self]
  unfold rowScore
  refine congrArg Ideal.logistic ?_
  refine (Ideal.multiReduction_add_single (mulf (mulf x0 x2) x1) 0x00000000#32 reduces_S8192x128_S8192 (.inl rfl) rfl (ix1 p)).trans ?_
  refine Finset.sum_congr rfl fun k _ => ?_
  exact congrArg (mulf (F := Ideal) (s := S8192x128) (φ := .f32) (mulf (F := Ideal) (s := S8192x128) (φ := .f32) x0 x2) x1)
    (lift_row reduces_S8192x128_S8192 p k)

end Cert.KernelIdeal.KValue

end
-- ==== Proof.Blocks.lean ====
/-
  From what one grid point writes back to the whole padded score array.

  The grid has 245 points. Point `t` reads rows `8192·t … 8192·t + 8191` of the three padded [2007040, 128] arrays
  (all four index maps send `t` to block `t`; decided once over the grid) and writes back 8192 scores, which are
  entries `8192·t … 8192·t + 8191` of ONE function of the three arrays: `scores A R B`, the score of every row.
  Every entry `i` of the [2007040] array lies in the block of point `i / 8192`, so after the run the array is
  `scores` of the three arrays as the region finds them.
-/
import proofs.«151514_j39127152066939_1_alg».proof.Proof.Gen.KernelIdeal.Frame
import proofs.«151514_j39127152066939_1_alg».proof.Proof.Payload
import Idealize.ShloMosaic.Lib.Pipeline.Value

noncomputable section

namespace Cert.KernelIdeal.KValue

open Cert.KernelIdeal Cert.KernelIdeal.Gen Idealize.ShloMosaic Idealize.ShloMosaic.TcCoe Idealize.SL.Sem
open Idealize.ShloMosaic.ValueIdx Cert.DistMult
open Idealize.ShloMosaic.Pipeline (Dat)

variable (m : (ℓ : Loc nD τ sig) → Buf (Elt Ideal) ℓ)

/-- Row `i`, lane `k` of a padded [2007040, 128] array. -/
abbrev padCell (i : S2007040.Idx) (k : Fin 128) : S2007040x128.Idx := fun a => match a with
  | ⟨0, _⟩ => ⟨(i 0).val, (i 0).isLt⟩
  | ⟨1, _⟩ => ⟨k.val, k.isLt⟩

/-- The score of every row of three padded arrays: source rows `A`, relation rows `R`, destination rows `B`. -/
def scores (A R B : S2007040x128.Idx → Elt Ideal .f32) : S2007040.Idx → Elt Ideal .f32 := fun i =>
  rowScore (fun k => A (padCell i k)) (fun k => R (padCell i k)) (fun k => B (padCell i k))

theorem hz1 : (![0] : Fin 1 → Nat) = fun _ => 0 := funext fun a => by fin_cases a <;> rfl
theorem hz2 : (![0, 0] : Fin 2 → Nat) = fun _ => 0 := funext fun a => by fin_cases a <;> rfl

/-- Every window's index map sends point `t` to block `t` on the row axis (and to block 0 on the lane axis):
    decided over the 245 points. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 1) = t.val :=
  (by decide +kernel : ∀ t : Fin grid0.N, _)

/-- Row `p`, lane `k` of the source window's block at point `t` is row `8192·t + p`, lane `k` of its array. -/
theorem iblk0_apply (c : Dev nD) (t : Fin cfg0.N) (p : Fin 8192) (k : Fin 128) (i : S2007040x128.Idx)
    (h0 : (i 0).val = t.val * 8192 + p.val) (h1 : (i 1).val = k.val) :
    (iblk m c 0 t : Vec Ideal S8192x128 .f32) (ix2 p k) = (V m c main_v25 : S2007040x128.Idx → Elt Ideal .f32) i := by
  obtain ⟨e0, e1, -⟩ := idx_facts t
  unfold iblk
  rw [View.read_apply]
  show V m c main_v25 _ = V m c main_v25 _
  refine congrArg (V m c main_v25) ?_
  funext a
  apply Fin.ext
  match a with
  | ⟨0, _⟩ => show win0_0.index t (0 : Fin 2) * 8192 + 1 * p.val = (i 0).val; rw [e0, h0]; omega
  | ⟨1, _⟩ => show win0_0.index t (1 : Fin 2) * 128 + 1 * k.val = (i 1).val; rw [e1, h1]; omega

/-- The same for the destination window. -/
theorem iblk1_apply (c : Dev nD) (t : Fin cfg0.N) (p : Fin 8192) (k : Fin 128) (i : S2007040x128.Idx)
    (h0 : (i 0).val = t.val * 8192 + p.val) (h1 : (i 1).val = k.val) :
    (iblk m c 1 t : Vec Ideal S8192x128 .f32) (ix2 p k) = (V m c main_v26 : S2007040x128.Idx → Elt Ideal .f32) i := by
  obtain ⟨-, -, e0, e1, -⟩ := idx_facts t
  unfold iblk
  rw [View.read_apply]
  show V m c main_v26 _ = V m c main_v26 _
  refine congrArg (V m c main_v26) ?_
  funext a
  apply Fin.ext
  match a with
  | ⟨0, _⟩ => show win0_1.index t (0 : Fin 2) * 8192 + 1 * p.val = (i 0).val; rw [e0, h0]; omega
  | ⟨1, _⟩ => show win0_1.index t (1 : Fin 2) * 128 + 1 * k.val = (i 1).val; rw [e1, h1]; omega

/-- The same for the relation window. -/
theorem iblk2_apply (c : Dev nD) (t : Fin cfg0.N) (p : Fin 8192) (k : Fin 128) (i : S2007040x128.Idx)
    (h0 : (i 0).val = t.val * 8192 + p.val) (h1 : (i 1).val = k.val) :
    (iblk m c 2 t : Vec Ideal S8192x128 .f32) (ix2 p k) = (V m c main_v27 : S2007040x128.Idx → Elt Ideal .f32) i := by
  obtain ⟨-, -, -, -, e0, e1, -⟩ := idx_facts t
  unfold iblk
  rw [View.read_apply]
  show V m c main_v27 _ = V m c main_v27 _
  refine congrArg (V m c main_v27) ?_
  funext a
  apply Fin.ext
  match a with
  | ⟨0, _⟩ => show win0_2.index t (0 : Fin 2) * 8192 + 1 * p.val = (i 0).val; rw [e0, h0]; omega
  | ⟨1, _⟩ => show win0_2.index t (1 : Fin 2) * 128 + 1 * k.val = (i 1).val; rw [e1, h1]; omega

/-- The padded score array as the region's three input arrays give it. -/
abbrev G (c : Dev nD) : S2007040.Idx → Elt Ideal .f32 :=
  scores (V m c main_v25) (V m c main_v27) (V m c main_v26)

/-- WHAT POINT `t` WRITES BACK is block `t` of `G`: entry `p` of the block is the score of row `p` of the three
    input blocks, which are rows `8192·t + p` of the three arrays, and entry `p` of block `t` of the output array
    is its entry `8192·t + p`. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  unfold out0_3
  rw [View.canon_unit_zero hz1]
  simp only [View.ld_unit_zero (S := S8192x128) hz2]
  obtain ⟨-, -, -, -, -, -, e3⟩ := idx_facts t
  funext j
  show k0_pay1 (F := Ideal) (iblk m c 0 t) (iblk m c 1 t) (iblk m c 2 t) j = G m c (((cfg0.win 3).blk t).view.emb j)
  obtain ⟨p, rfl⟩ : ∃ p : Fin 8192, j = ix1 p := ⟨j 0, eq_ix1 j⟩
  refine (payload_apply _ _ _ p).trans ?_
  have hrow : ∀ k : Fin 128, (padCell (((cfg0.win 3).blk t).view.emb (ix1 p)) k 0).val = t.val * 8192 + p.val := fun k => by
    show win0_3.index t (0 : Fin 1) * 8192 + 1 * p.val = _
    rw [e3]; omega
  have a0 : (fun k => (iblk m c 0 t : Vec Ideal S8192x128 .f32) (ix2 p k))
      = fun k => (V m c main_v25 : S2007040x128.Idx → Elt Ideal .f32) (padCell (((cfg0.win 3).blk t).view.emb (ix1 p)) k) :=
    funext fun k => iblk0_apply m c t p k _ (hrow k) rfl
  have a1 : (fun k => (iblk m c 1 t : Vec Ideal S8192x128 .f32) (ix2 p k))
      = fun k => (V m c main_v26 : S2007040x128.Idx → Elt Ideal .f32) (padCell (((cfg0.win 3).blk t).view.emb (ix1 p)) k) :=
    funext fun k => iblk1_apply m c t p k _ (hrow k) rfl
  have a2 : (fun k => (iblk m c 2 t : Vec Ideal S8192x128 .f32) (ix2 p k))
      = fun k => (V m c main_v27 : S2007040x128.Idx → Elt Ideal .f32) (padCell (((cfg0.win 3).blk t).view.emb (ix1 p)) k) :=
    funext fun k => iblk2_apply m c t p k _ (hrow k) rfl
  rw [a0, a1, a2]
  rfl

/-- An entry of the output array is in point `t`'s block iff it is in the block's range of 8192 entries. -/
theorem mem_blk (t : Fin cfg0.N) (i : S2007040.Idx) :
    i ∈ ((cfg0.win 3).blk t).view.set ↔ ∀ a : Fin 1, win0_3.index t a * S8192.size a ≤ (i a).val ∧ (i a).val < win0_3.index t a * S8192.size a + S8192.size a := by
  show i ∈ ((View.whole main_v28).slice (win0_3.rect t)).set ↔ _
  rw [View.set_slice_whole, Rect.mem_set_unit]
  exact Iff.rfl

/-- Every entry `i` of the output array is in the block of point `i / 8192`, which writes back. -/
theorem cover (i : S2007040.Idx) : ∃ t : Fin cfg0.N, (cfg0.win 3).flush t = true ∧ i ∈ ((cfg0.win 3).blk t).view.set := by
  have hi : (i 0).val < 2007040 := (i 0).isLt
  have hN : cfg0.N = 245 := N_0
  have hq : (i 0).val / 8192 < cfg0.N := by rw [hN]; omega
  obtain ⟨-, -, -, -, -, -, e3⟩ := idx_facts ⟨(i 0).val / 8192, hq⟩
  refine ⟨⟨(i 0).val / 8192, hq⟩, flush0_3 _, ?_⟩
  rw [mem_blk]
  intro a
  match a with
  | ⟨0, _⟩ =>
    show win0_3.index ⟨(i 0).val / 8192, hq⟩ (0 : Fin 1) * 8192 ≤ (i 0).val ∧ (i 0).val < win0_3.index ⟨(i 0).val / 8192, hq⟩ (0 : Fin 1) * 8192 + 8192
    rw [e3]
    show (i 0).val / 8192 * 8192 ≤ (i 0).val ∧ (i 0).val < (i 0).val / 8192 * 8192 + 8192
    omega

/-- THE ARRAY after the run: the score of every row of the three padded arrays as the region finds them. -/
theorem final (c : Dev nD) : (dats m 0 c).arrAt 3 cfg0.N = G m c :=
  (dats m 0 c).arrAt_eq_of_cover 3 (G m c) (fun t _ => flushed_eq m c t) cover

end Cert.KernelIdeal.KValue

end
-- ==== Proof.Entry.lean ====
/-
  What the region finds in its three input arrays.

  Before the region the host gathers the source rows `z[e₀]`, the destination rows `z[e₁]` and the relation rows
  `rel[rid]` (a negative index first wrapped by the table's extent, as jnp indexing does), each a [2000000, 128]
  array, and pads each with 7040 rows of zeros to [2007040, 128]. The gathers are named here as functions of the
  argument arrays and never opened: the reference applies the very same operations to the same arguments. A padded
  array read at a row below 2000000 is the array itself there.
-/
import proofs.«151514_j39127152066939_1_alg».proof.Proof.Gen.KernelIdeal.Frame
import Idealize.ShloMosaic.Lib.StableHlo.Run
import Idealize.ShloMosaic.Lib.KernelVsHost
import Idealize.ShloMosaic.Lib.ValueIdx

noncomputable section

namespace Cert.KernelIdeal.KValue

open Cert.KernelIdeal Cert.KernelIdeal.Gen Idealize.ShloMosaic Idealize.ShloMosaic.TcCoe Idealize.SL.Sem Idealize.ShloMosaic.StableHlo
open Idealize.ShloMosaic.ValueIdx

variable {F : FTy → Type} [FloatOps F]

/-- The source rows `z[e₀]`, `e₀` the first row of the edge list. -/
def srcRows (x0 : (⟨S100000x128, .f32⟩ : BufTy).Contents (Elt F)) (x1 : (⟨S2x2000000, .i32⟩ : BufTy).Contents (Elt F)) : (⟨S2000000x128, .f32⟩ : BufTy).Contents (Elt F) :=
  Host.gather gather_S100000x128_S2000000x1_S2000000x128_1_0_n_n_0_1_1128 (x0) (broadcastInDim S2000000x1 ![0] bcast_S2000000_S2000000x1_0 (select (cmpi .slt (shapeCast _ (extractStridedSlice S1x2000000 ![0, 0] (x1) slices_S2x2000000_S1x2000000_0_0) shapeCasts_S1x2000000_S2000000) (broadcastInDim S2000000 ![] bcast_S_S2000000 (constantI S_ 32 0#32))) (addi (shapeCast _ (extractStridedSlice S1x2000000 ![0, 0] (x1) slices_S2x2000000_S1x2000000_0_0) shapeCasts_S1x2000000_S2000000) (broadcastInDim S2000000 ![] bcast_S_S2000000 (constantI S_ 32 100000#32))) (shapeCast _ (extractStridedSlice S1x2000000 ![0, 0] (x1) slices_S2x2000000_S1x2000000_0_0) shapeCasts_S1x2000000_S2000000)))

/-- The destination rows `z[e₁]`, `e₁` the second row of the edge list. -/
def dstRows (x0 : (⟨S100000x128, .f32⟩ : BufTy).Contents (Elt F)) (x1 : (⟨S2x2000000, .i32⟩ : BufTy).Contents (Elt F)) : (⟨S2000000x128, .f32⟩ : BufTy).Contents (Elt F) :=
  Host.gather gather_S100000x128_S2000000x1_S2000000x128_1_0_n_n_0_1_1128 (x0) (broadcastInDim S2000000x1 ![0] bcast_S2000000_S2000000x1_0 (select (cmpi .slt (shapeCast _ (extractStridedSlice S1x2000000 ![1, 0] (x1) slices_S2x2000000_S1x2000000_1_0) shapeCasts_S1x2000000_S2000000) (broadcastInDim S2000000 ![] bcast_S_S2000000 (constantI S_ 32 0#32))) (addi (shapeCast _ (extractStridedSlice S1x2000000 ![1, 0] (x1) slices_S2x2000000_S1x2000000_1_0) shapeCasts_S1x2000000_S2000000) (broadcastInDim S2000000 ![] bcast_S_S2000000 (constantI S_ 32 100000#32))) (shapeCast _ (extractStridedSlice S1x2000000 ![1, 0] (x1) slices_S2x2000000_S1x2000000_1_0) shapeCasts_S1x2000000_S2000000)))

/-- The relation rows `rel[rid]`. -/
def relRows (x2 : (⟨S2000000, .i32⟩ : BufTy).Contents (Elt F)) (x3 : (⟨S64x128, .f32⟩ : BufTy).Contents (Elt F)) : (⟨S2000000x128, .f32⟩ : BufTy).Contents (Elt F) :=
  Host.gather gather_S64x128_S2000000x1_S2000000x128_1_0_n_n_0_1_1128 (x3) (broadcastInDim S2000000x1 ![0] bcast_S2000000_S2000000x1_0 (select (cmpi .slt (x2) (broadcastInDim S2000000 ![] bcast_S_S2000000 (constantI S_ 32 0#32))) (addi (x2) (broadcastInDim S2000000 ![] bcast_S_S2000000 (constantI S_ 32 64#32))) (x2)))

/-- A [2000000, 128] array with 7040 rows of (float) zero added below it. -/
def padRows (x : (⟨S2000000x128, .f32⟩ : BufTy).Contents (Elt F)) : (⟨S2007040x128, .f32⟩ : BufTy).Contents (Elt F) :=
  pad S2007040x128 ![0, 0] ![7040, 0] ![0, 0] x (sitofp (F := F) .f32 (constantI S_ 32 0#32)) pads_S2000000x128_S2007040x128_070400_000 h_S_

/-- Below row 2000000 the padded array is the array. -/
theorem padRows_apply (x : (⟨S2000000x128, .f32⟩ : BufTy).Contents (Elt F)) (j : S2007040x128.Idx) (i : S2000000x128.Idx)
    (h0 : (j 0).val = (i 0).val) (h1 : (j 1).val = (i 1).val) : padRows x j = x i := by
  unfold padRows
  refine pad_apply_of_inside _ _ _ x _ _ _ j i (fun a => ?_)
  match a with
  | ⟨0, _⟩ => show (j 0).val = 0 + (i 0).val * (0 + 1); omega
  | ⟨1, _⟩ => show (j 1).val = 0 + (i 1).val * (0 + 1); omega

variable (m : (ℓ : Loc nD τ sig) → Buf (Elt F) ℓ)

/-- The source window's array as the region finds it: the gathered source rows, padded. -/
theorem entry_src (c : Dev nD) :
    V m c main_v25 = padRows (srcRows (m ((c : Thread nD τ).loc main_arg0)) (m ((c : Thread nD τ).loc main_arg1))) := by
  dsimp only [V, V0]
  simp only [hostOps0, hostOps0_1, hostOps0_2, hostOps0_3, hostOps0_4, hostOps0_5, List.flatten_cons, List.flatten_nil,
    List.append_nil, List.cons_append, List.nil_append]
  after_results_simp <;> rfl

/-- The destination window's array as the region finds it: the gathered destination rows, padded. -/
theorem entry_dst (c : Dev nD) :
    V m c main_v26 = padRows (dstRows (m ((c : Thread nD τ).loc main_arg0)) (m ((c : Thread nD τ).loc main_arg1))) := by
  dsimp only [V, V0]
  simp only [hostOps0, hostOps0_1, hostOps0_2, hostOps0_3, hostOps0_4, hostOps0_5, List.flatten_cons, List.flatten_nil,
    List.append_nil, List.cons_append, List.nil_append]
  after_results_simp <;> rfl

/-- The relation window's array as the region finds it: the gathered relation rows, padded. -/
theorem entry_rel (c : Dev nD) :
    V m c main_v27 = padRows (relRows (m ((c : Thread nD τ).loc main_arg2)) (m ((c : Thread nD τ).loc main_arg3))) := by
  dsimp only [V, V0]
  simp only [hostOps0, hostOps0_1, hostOps0_2, hostOps0_3, hostOps0_4, hostOps0_5, List.flatten_cons, List.flatten_nil,
    List.append_nil, List.cons_append, List.nil_append]
  after_results_simp <;> rfl

end Cert.KernelIdeal.KValue

end
-- ==== Proof.KernelRun.lean ====
/-
  The kernel's run, read: its result as one function of the argument arrays.

  After the region the host keeps entries `0 … 1999999` of the [2007040] score array. Entry `i` of that array is
  the score of row `i` of the three padded arrays, and below row 2000000 a padded array is the gathered array it
  pads: so the result at edge `i` is `rowScore` of row `i` of the gathered source, relation and destination rows —
  the 7040 zero rows are scored too, and dropped.
-/
import proofs.«151514_j39127152066939_1_alg».proof.Proof.Blocks
import proofs.«151514_j39127152066939_1_alg».proof.Proof.Entry
import Idealize.ShloMosaic.Lib.StableHlo.Run

noncomputable section

namespace Cert.KernelIdeal.KValue

open Cert.KernelIdeal Cert.KernelIdeal.Gen Idealize.ShloMosaic Idealize.ShloMosaic.TcCoe Idealize.SL.Sem Idealize.ShloMosaic.StableHlo
open Idealize.ShloMosaic.ValueIdx Cert.DistMult
open Idealize.ShloMosaic.Pipeline (Dat)

/-- Row `i`, lane `k` of a [2000000, 128] array. -/
abbrev edgeCell (i : S2000000.Idx) (k : Fin 128) : S2000000x128.Idx := fun a => match a with
  | ⟨0, _⟩ => ⟨(i 0).val, (i 0).isLt⟩
  | ⟨1, _⟩ => ⟨k.val, k.isLt⟩

/-- Entry `i` of the kept [2000000] prefix, as an entry of the padded [2007040] array. -/
abbrev keptEntry (i : S2000000.Idx) : S2007040.Idx := fun a => match a with
  | ⟨0, _⟩ => ⟨(i 0).val, by have h0 : (i 0).val < 2000000 := (i 0).isLt; show (i 0).val < 2007040; omega⟩

/-- The score of every edge from three [2000000, 128] arrays of rows. -/
def edgeScores (A R B : S2000000x128.Idx → Elt Ideal .f32) : S2000000.Idx → Elt Ideal .f32 := fun i =>
  rowScore (fun k => A (edgeCell i k)) (fun k => R (edgeCell i k)) (fun k => B (edgeCell i k))

/-- The kernel program's result as a function of its four argument arrays. -/
def result (x0 : (⟨S100000x128, .f32⟩ : BufTy).Contents (Elt Ideal)) (x1 : (⟨S2x2000000, .i32⟩ : BufTy).Contents (Elt Ideal))
    (x2 : (⟨S2000000, .i32⟩ : BufTy).Contents (Elt Ideal)) (x3 : (⟨S64x128, .f32⟩ : BufTy).Contents (Elt Ideal)) :
    S2000000.Idx → Elt Ideal .f32 :=
  edgeScores (srcRows x0 x1) (relRows x2 x3) (dstRows x0 x1)

/-- Entry `j` of the padded score array, `j` below 2000000, is the score of edge `j` of the arrays padded. -/
theorem scores_padRows_apply (A R B : (⟨S2000000x128, .f32⟩ : BufTy).Contents (Elt Ideal)) (j : S2007040.Idx) (i : S2000000.Idx)
    (hj : (j 0).val = (i 0).val) : scores (padRows A) (padRows R) (padRows B) j = edgeScores A R B i := by
  unfold scores edgeScores
  have hA : (fun k => padRows A (padCell j k)) = fun k => A (edgeCell i k) := funext fun k => padRows_apply A _ _ hj rfl
  have hR : (fun k => padRows R (padCell j k)) = fun k => R (edgeCell i k) := funext fun k => padRows_apply R _ _ hj rfl
  have hB : (fun k => padRows B (padCell j k)) = fun k => B (edgeCell i k) := funext fun k => padRows_apply B _ _ hj rfl
  rw [hA, hR, hB]

variable (m : (ℓ : Loc nD τ sig) → Buf (Elt Ideal) ℓ) (ρ : Dev nD → PrngReg)

/-- The padded score array after the run, over the argument arrays. -/
theorem final_args (c : Dev nD) : (dats m 0 c).arrAt 3 cfg0.N
    = scores (padRows (srcRows (m ((c : Thread nD τ).loc main_arg0)) (m ((c : Thread nD τ).loc main_arg1)))) (padRows (relRows (m ((c : Thread nD τ).loc main_arg2)) (m ((c : Thread nD τ).loc main_arg3))))
        (padRows (dstRows (m ((c : Thread nD τ).loc main_arg0)) (m ((c : Thread nD τ).loc main_arg1)))) := by
  rw [final m c]
  show scores (V m c main_v25) (V m c main_v27) (V m c main_v26) = _
  rw [entry_src m c, entry_rel m c, entry_dst m c]

/-- The program's result buffer after the host's last line: the first 2000000 entries of the padded score array. -/
theorem tail_eq (c : Dev nD) :
    Pipeline.afterTail₀ cfgs (dats m) 0 (V0 m) [hostOps1] c main_v29
      = result (m ((c : Thread nD τ).loc main_arg0)) (m ((c : Thread nD τ).loc main_arg1)) (m ((c : Thread nD τ).loc main_arg2)) (m ((c : Thread nD τ).loc main_arg3)) := by
  unfold Pipeline.afterTail₀
  show StableHlo.after hostOps1 _ (Proc.devRef .tc main_v29) = _
  after_results
  have hw : Pipeline.withArrays (cfgs 0).spec c (V0 m c) (fun w => (dats m 0 c).arrAt w (cfgs 0).N) (Proc.devRef .tc main_v28)
      = scores (padRows (srcRows (m ((c : Thread nD τ).loc main_arg0)) (m ((c : Thread nD τ).loc main_arg1)))) (padRows (relRows (m ((c : Thread nD τ).loc main_arg2)) (m ((c : Thread nD τ).loc main_arg3))))
          (padRows (dstRows (m ((c : Thread nD τ).loc main_arg0)) (m ((c : Thread nD τ).loc main_arg1)))) :=
    (Pipeline.withArrays_arr spec0 launch0.win.arr_inj c _ _ 3).trans (final_args m c)
  rw [hw]
  funext i
  exact (extractStridedSlice_apply (s := S2007040) (t := S2000000) ![0] _ slices_S2007040_S2000000_0 i (keptEntry i)
    (fun a => match a with | ⟨0, _⟩ => by show (i 0).val = 0 + (i 0).val; omega)).trans
    (scores_padRows_apply _ _ _ (keptEntry i) i rfl)

/-- THE RUN, READ: every weakly fair execution of the kernel program terminates with its result at `result` of the
    argument arrays, and the arguments unchanged. -/
theorem run : θ_run defs (onTc (τ := τ) (main (F := Ideal))) ⟨m, fun _ => 0, ρ⟩ fun r => ∀ c : Dev nD,
      r.2.mem ((c : Thread nD τ).loc main_v29) = result (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
      ⟨((h c).2 main_v29 (Pipeline.mem_restRefs_of main_v29 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c)⟩)
    (run_main m ρ)

end Cert.KernelIdeal.KValue

end
-- ==== Proof.lean ====
/-
  DistMult edge scoring, `σ (∑ₖ z[e₀, k] · rel[rid, k] · z[e₁, k])` for 2000000 edges over 128 features: the kernel
  program against its jnp reference, equal as extended reals edge by edge.

  Both programs gather the same three [2000000, 128] arrays of rows from the same arguments by the same host
  operations (source rows, relation rows, destination rows); those gathers are carried as three named functions and
  never opened. The reference multiplies them as `(src · rel) · dst`, sums each row from `0` and applies
  `1 / (1 + exp (-·))` on the host. The kernel program pads each array with 7040 zero rows to 245 blocks of 8192
  rows, scores one block per grid point — the same products in the same grouping, a lane sum, the logistic function —
  and keeps the first 2000000 scores. At the ideal instance the lane sum and the host's sum are the same sum over
  `k : Fin 128`, the logistic function IS the quotient the host spells (for every extended real, `⊥ ↦ 0`, `⊤ ↦ 1`),
  block `t` of the padded score array is what point `t` writes back, and below row 2000000 a padded array is the
  array it pads: both results are `rowScore` of row `i` of the three gathered arrays. No law that needs finiteness
  is used, so the precondition is not opened. The ideal pass rewrote nothing, so `preserves` is `True`; the three
  frames are the generated ones (the reference's is its run with the result dropped).
-/
import proofs.«151514_j39127152066939_1_alg».proof.Defs
import proofs.«151514_j39127152066939_1_alg».proof.Proof.Gen.Kernel
import proofs.«151514_j39127152066939_1_alg».proof.Proof.Gen.Kernel.Skeleton
import proofs.«151514_j39127152066939_1_alg».proof.Proof.Gen.Kernel.Launch
import proofs.«151514_j39127152066939_1_alg».proof.Proof.Gen.Kernel.Points
import proofs.«151514_j39127152066939_1_alg».proof.Proof.Gen.Kernel.Frame
import proofs.«151514_j39127152066939_1_alg».proof.Proof.Gen.KernelIdeal
import proofs.«151514_j39127152066939_1_alg».proof.Proof.Gen.KernelIdeal.Skeleton
import proofs.«151514_j39127152066939_1_alg».proof.Proof.Gen.KernelIdeal.Launch
import proofs.«151514_j39127152066939_1_alg».proof.Proof.Gen.KernelIdeal.Points
import proofs.«151514_j39127152066939_1_alg».proof.Proof.Gen.KernelIdeal.Frame
import proofs.«151514_j39127152066939_1_alg».proof.Proof.Gen.ReferenceIdeal
import proofs.«151514_j39127152066939_1_alg».proof.Proof.Gen.Pre_finite_inputs
import proofs.«151514_j39127152066939_1_alg».proof.Proof.Gen.ReferenceIdeal.Run
import proofs.«151514_j39127152066939_1_alg».proof.Proof.Gen.ReferenceIdeal.Read
import proofs.«151514_j39127152066939_1_alg».proof.Proof.RefScore
import proofs.«151514_j39127152066939_1_alg».proof.Proof.KernelRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The reference's result IS the kernel program's result function of the same arguments: at every edge both are
    `rowScore` of that row of the gathered source, relation and destination rows, and the two programs' gathers are
    the same operations of the arguments. -/
theorem ref_is_result (x0 : (⟨Cert.ReferenceIdeal.S100000x128, .f32⟩ : BufTy).Contents (Elt Ideal))
    (x1 : (⟨Cert.ReferenceIdeal.S2x2000000, .i32⟩ : BufTy).Contents (Elt Ideal))
    (x2 : (⟨Cert.ReferenceIdeal.S2000000, .i32⟩ : BufTy).Contents (Elt Ideal))
    (x3 : (⟨Cert.ReferenceIdeal.S64x128, .f32⟩ : BufTy).Contents (Elt Ideal)) :
    Cert.ReferenceIdeal.Read.val_main_v33 (F := Ideal) x0 x1 x2 x3 = Cert.KernelIdeal.KValue.result x0 x1 x2 x3 := by
  funext i
  rw [Cert.ReferenceIdeal.RefValue.result_apply]
  rfl

/-- Both idealized programs, run from memories that agree on the arguments, end with the same score at every edge. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v33_eq _ _ _ _).trans (ref_is_result _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
